-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x128 : Shape := ⟨3, ![256, 64, 128]⟩
abbrev S64x64x128 : Shape := ⟨3, ![64, 64, 128]⟩
abbrev S_ : Shape := ⟨0, ![]⟩

class Facts : Prop where
  bcast_S_S256x64x128 : S_.BroadcastsInDim S256x64x128 (![] : Fin 0 → Fin S256x64x128.rank)
  reducesTo_S256x64x128_S_d0_1_2 : S256x64x128.ReducesTo [0, 1, 2] S_
  h_S_ : 0 < S_.numel
  bcast_S_S64x64x128 : S_.BroadcastsInDim S64x64x128 (![] : Fin 0 → Fin S64x64x128.rank)
  reducesTo_S64x64x128_S_d0_1_2 : S64x64x128.ReducesTo [0, 1, 2] S_

variable [Facts]

def fn {F : FTy → Type} [FloatOps F] (main_arg0 : FVec F S256x64x128 .f32) (main_arg1 : FVec F S64x64x128 .f32) : IVec S_ 1 :=
  let main_v0 : FVec F S256x64x128 .f32 := Host.absf main_arg0
  let main_cst : FVec F S_ .f32 := constant S_ .f32 0x7F800000#32
  let main_v1 : FVec F S256x64x128 .f32 := broadcastInDim S256x64x128 ![] bcast_S_S256x64x128 main_cst
  let main_v2 : IVec S256x64x128 1 := cmpf .olt main_v0 main_v1
  let main_c : IVec S_ 1 := constantI S_ 1 1#1
  let main_v3 : IVec S_ 1 := (fun x v => Host.reduce IntOp.andi x v reducesTo_S256x64x128_S_d0_1_2 h_S_) main_v2 main_c
  let main_v4 : FVec F S64x64x128 .f32 := Host.absf main_arg1
  let main_cst_0 : FVec F S_ .f32 := constant S_ .f32 0x7F800000#32
  let main_v5 : FVec F S64x64x128 .f32 := broadcastInDim S64x64x128 ![] bcast_S_S64x64x128 main_cst_0
  let main_v6 : IVec S64x64x128 1 := cmpf .olt main_v4 main_v5
  let main_c_1 : IVec S_ 1 := constantI S_ 1 1#1
  let main_v7 : IVec S_ 1 := (fun x v => Host.reduce IntOp.andi x v reducesTo_S64x64x128_S_d0_1_2 h_S_) main_v6 main_c_1
  let main_v8 : IVec S_ 1 := andi main_v3 main_v7
  main_v8
-- ==== Kernel.lean ====
abbrev S256x64x128 : Shape := ⟨3, ![256, 64, 128]⟩
abbrev S64x64x128 : Shape := ⟨3, ![64, 64, 128]⟩
abbrev S_ : Shape := ⟨0, ![]⟩
abbrev S64x64 : Shape := ⟨2, ![64, 64]⟩
abbrev S64x64x1 : Shape := ⟨3, ![64, 64, 1]⟩
abbrev S256x64 : Shape := ⟨2, ![256, 64]⟩
abbrev S256x64x1 : Shape := ⟨3, ![256, 64, 1]⟩
abbrev S64x256 : Shape := ⟨2, ![64, 256]⟩
abbrev S8x64x128 : Shape := ⟨3, ![8, 64, 128]⟩
abbrev S8x256 : Shape := ⟨2, ![8, 256]⟩
abbrev S1x64x128 : Shape := ⟨3, ![1, 64, 128]⟩
abbrev S64x128 : Shape := ⟨2, ![64, 128]⟩
abbrev S256x64x64 : Shape := ⟨3, ![256, 64, 64]⟩
abbrev S256 : Shape := ⟨1, ![256]⟩
abbrev S1x256 : Shape := ⟨2, ![1, 256]⟩

abbrev nBuf : Space → Nat
  | .hbm => 25
  | .vmem => 5
  | .smem => 0
  | _ => 0

abbrev bufTy : (tb : Table) → Fin (tcTables nBuf tb) → BufTy
  | .hbm, ⟨0, _⟩ => ⟨S256x64x128, .f32⟩
  | .hbm, ⟨1, _⟩ => ⟨S64x64x128, .f32⟩
  | .hbm, ⟨2, _⟩ => ⟨S64x64x128, .f32⟩
  | .hbm, ⟨3, _⟩ => ⟨S_, .f32⟩
  | .hbm, ⟨4, _⟩ => ⟨S64x64, .f32⟩
  | .hbm, ⟨5, _⟩ => ⟨S64x64x1, .f32⟩
  | .hbm, ⟨6, _⟩ => ⟨S64x64x1, .f32⟩
  | .hbm, ⟨7, _⟩ => ⟨S_, .f32⟩
  | .hbm, ⟨8, _⟩ => ⟨S64x64x1, .f32⟩
  | .hbm, ⟨9, _⟩ => ⟨S64x64x1, .f32⟩
  | .hbm, ⟨10, _⟩ => ⟨S64x64x128, .f32⟩
  | .hbm, ⟨11, _⟩ => ⟨S64x64x128, .f32⟩
  | .hbm, ⟨12, _⟩ => ⟨S256x64x128, .f32⟩
  | .hbm, ⟨13, _⟩ => ⟨S_, .f32⟩
  | .hbm, ⟨14, _⟩ => ⟨S256x64, .f32⟩
  | .hbm, ⟨15, _⟩ => ⟨S256x64x1, .f32⟩
  | .hbm, ⟨16, _⟩ => ⟨S256x64x1, .f32⟩
  | .hbm, ⟨17, _⟩ => ⟨S_, .f32⟩
  | .hbm, ⟨18, _⟩ => ⟨S256x64x1, .f32⟩
  | .hbm, ⟨19, _⟩ => ⟨S256x64x1, .f32⟩
  | .hbm, ⟨20, _⟩ => ⟨S256x64x128, .f32⟩
  | .hbm, ⟨21, _⟩ => ⟨S256x64x128, .f32⟩
  | .hbm, ⟨22, _⟩ => ⟨S64x64x128, .bf16⟩
  | .hbm, ⟨23, _⟩ => ⟨S256x64x128, .bf16⟩
  | .hbm, ⟨24, _⟩ => ⟨S64x256, .f32⟩
  | .local _ .vmem, ⟨0, _⟩ => ⟨S8x64x128, .bf16⟩
  | .local _ .vmem, ⟨1, _⟩ => ⟨S8x64x128, .bf16⟩
  | .local _ .vmem, ⟨2, _⟩ => ⟨S256x64x128, .bf16⟩
  | .local _ .vmem, ⟨3, _⟩ => ⟨S8x256, .f32⟩
  | .local _ .vmem, ⟨4, _⟩ => ⟨S8x256, .f32⟩
  | _, _ => ⟨S256x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S64x64x128_S64x64_d2 : S64x64x128.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x128_0_1_2 : S64x64x1.BroadcastsInDim S64x64x128 (![0, 1, 2] : Fin 3 → Fin S64x64x128.rank)
  reducesTo_S256x64x128_S256x64_d2 : S256x64x128.ReducesTo [2] S256x64
  bcast_S256x64_S256x64x1_0_1 : S256x64.BroadcastsInDim S256x64x1 (![0, 1] : Fin 2 → Fin S256x64x1.rank)
  bcast_S_S256x64x1 : S_.BroadcastsInDim S256x64x1 (![] : Fin 0 → Fin S256x64x1.rank)
  bcast_S256x64x1_S256x64x128_0_1_2 : S256x64x1.BroadcastsInDim S256x64x128 (![0, 1, 2] : Fin 3 → Fin S256x64x128.rank)
  bitsLt_bf16_f32 : FTy.bits .bf16 < FTy.bits .f32
  inb_S256x64x128_S256x64x128_0_0_0 : ∀ a, (![0, 0, 0] : Fin 3 → Nat) a + S256x64x128.size a ≤ S256x64x128.size a
  h_S256x64x128 : 0 < S256x64x128.numel
  shapeCasts_S256x64x128_S256x64x128 : S256x64x128.ShapeCasts S256x64x128
  inb_S8x64x128_S1x64x128_0_0_0 : ∀ a, (![0, 0, 0] : Fin 3 → Nat) a + S1x64x128.size a ≤ S8x64x128.size a
  h_S1x64x128 : 0 < S1x64x128.numel
  shapeCasts_S1x64x128_S64x128 : S1x64x128.ShapeCasts S64x128
  shapeCasts_S64x128_S1x64x128 : S64x128.ShapeCasts S1x64x128
  broadcasts_S1x64x128_S256x64x128 : S1x64x128.Broadcasts S256x64x128
  reduces_S256x64x64_S256x64 : S256x64x64.Reduces [2] S256x64
  reduces_S256x64_S256 : S256x64.Reduces [1] S256
  inb_S8x256_S1x256_0_0 : ∀ a, (![0, 0] : Fin 2 → Nat) a + S1x256.size a ≤ S8x256.size a
  h_S1x256 : 0 < S1x256.numel
  shapeCasts_S1x256_S256 : S1x256.ShapeCasts S256
  shapeCasts_S256_S1x256 : S256.ShapeCasts S1x256
  inb_S8x64x128_S1x64x128_1_0_0 : ∀ a, (![1, 0, 0] : Fin 3 → Nat) a + S1x64x128.size a ≤ S8x64x128.size a
  inb_S8x256_S1x256_1_0 : ∀ a, (![1, 0] : Fin 2 → Nat) a + S1x256.size a ≤ S8x256.size a
  inb_S8x64x128_S1x64x128_2_0_0 : ∀ a, (![2, 0, 0] : Fin 3 → Nat) a + S1x64x128.size a ≤ S8x64x128.size a
  inb_S8x256_S1x256_2_0 : ∀ a, (![2, 0] : Fin 2 → Nat) a + S1x256.size a ≤ S8x256.size a
  inb_S8x64x128_S1x64x128_3_0_0 : ∀ a, (![3, 0, 0] : Fin 3 → Nat) a + S1x64x128.size a ≤ S8x64x128.size a
  inb_S8x256_S1x256_3_0 : ∀ a, (![3, 0] : Fin 2 → Nat) a + S1x256.size a ≤ S8x256.size a
  inb_S8x64x128_S1x64x128_4_0_0 : ∀ a, (![4, 0, 0] : Fin 3 → Nat) a + S1x64x128.size a ≤ S8x64x128.size a
  inb_S8x256_S1x256_4_0 : ∀ a, (![4, 0] : Fin 2 → Nat) a + S1x256.size a ≤ S8x256.size a
  inb_S8x64x128_S1x64x128_5_0_0 : ∀ a, (![5, 0, 0] : Fin 3 → Nat) a + S1x64x128.size a ≤ S8x64x128.size a
  inb_S8x256_S1x256_5_0 : ∀ a, (![5, 0] : Fin 2 → Nat) a + S1x256.size a ≤ S8x256.size a
  inb_S8x64x128_S1x64x128_6_0_0 : ∀ a, (![6, 0, 0] : Fin 3 → Nat) a + S1x64x128.size a ≤ S8x64x128.size a
  inb_S8x256_S1x256_6_0 : ∀ a, (![6, 0] : Fin 2 → Nat) a + S1x256.size a ≤ S8x256.size a
  inb_S8x64x128_S1x64x128_7_0_0 : ∀ a, (![7, 0, 0] : Fin 3 → Nat) a + S1x64x128.size a ≤ S8x64x128.size a
  inb_S8x256_S1x256_7_0 : ∀ a, (![7, 0] : Fin 2 → Nat) a + S1x256.size a ≤ S8x256.size a
  dot_S256x64x128_S256x64x128_S256x64x64_2_2_1_1_0_0_wf : DotDims.WF S256x64x128 S256x64x128 S256x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x128.size a ≤ S64x64x128.size a
  hwx0_0 : ∀ i : grid0.Coords, EltTy.bits .bf16 = 32 ∨ (Rect.block (s := S64x64x128) S8x64x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64x128.size a ≤ S256x64x128.size a
  hwx0_1 : ∀ i : grid0.Coords, EltTy.bits .bf16 = 32 ∨ (Rect.block (s := S256x64x128) S256x64x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S64x256.size a
  hwx0_2 : ∀ i : grid0.Coords, EltTy.bits .f32 = 32 ∨ (Rect.block (s := S64x256) S8x256.size (cc0_transform_2 i) (hinb0_2 i)).WholeWords (EltTy.packing .f32)

variable [Facts₀]

def dot_S256x64x128_S256x64x128_S256x64x64_2_2_1_1_0_0 : DotDims S256x64x128 S256x64x128 S256x64x64 where
  lhsContracting := [2]
  rhsContracting := [2]
  lhsNonContracting := [1]
  rhsNonContracting := [1]
  lhsBatch := [0]
  rhsBatch := [0]
  wf := dot_S256x64x128_S256x64x128_S256x64x64_2_2_1_1_0_0_wf

abbrev win0_0 : Pipeline.Window sig grid0 :=
  Pipeline.Window.ofSpec (Memref.whole main_v10) S8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x64x128 : Shape := ⟨3, ![256, 64, 128]⟩
abbrev S64x64x128 : Shape := ⟨3, ![64, 64, 128]⟩
abbrev S_ : Shape := ⟨0, ![]⟩
abbrev S64x64 : Shape := ⟨2, ![64, 64]⟩
abbrev S64x64x1 : Shape := ⟨3, ![64, 64, 1]⟩
abbrev S256x64 : Shape := ⟨2, ![256, 64]⟩
abbrev S256x64x1 : Shape := ⟨3, ![256, 64, 1]⟩
abbrev S256x64x64x64 : Shape := ⟨4, ![256, 64, 64, 64]⟩
abbrev S64x256x64x64 : Shape := ⟨4, ![64, 256, 64, 64]⟩
abbrev S64x256x64 : Shape := ⟨3, ![64, 256, 64]⟩
abbrev S64x256 : Shape := ⟨2, ![64, 256]⟩

abbrev nBuf : Space → Nat
  | .hbm => 28
  | .vmem => 0
  | .smem => 0
  | _ => 0

abbrev bufTy : (tb : Table) → Fin (tcTables nBuf tb) → BufTy
  | .hbm, ⟨0, _⟩ => ⟨S256x64x128, .f32⟩
  | .hbm, ⟨1, _⟩ => ⟨S64x64x128, .f32⟩
  | .hbm, ⟨2, _⟩ => ⟨S64x64x128, .f32⟩
  | .hbm, ⟨3, _⟩ => ⟨S_, .f32⟩
  | .hbm, ⟨4, _⟩ => ⟨S64x64, .f32⟩
  | .hbm, ⟨5, _⟩ => ⟨S64x64x1, .f32⟩
  | .hbm, ⟨6, _⟩ => ⟨S64x64x1, .f32⟩
  | .hbm, ⟨7, _⟩ => ⟨S_, .f32⟩
  | .hbm, ⟨8, _⟩ => ⟨S64x64x1, .f32⟩
  | .hbm, ⟨9, _⟩ => ⟨S64x64x1, .f32⟩
  | .hbm, ⟨10, _⟩ => ⟨S64x64x128, .f32⟩
  | .hbm, ⟨11, _⟩ => ⟨S64x64x128, .f32⟩
  | .hbm, ⟨12, _⟩ => ⟨S256x64x128, .f32⟩
  | .hbm, ⟨13, _⟩ => ⟨S_, .f32⟩
  | .hbm, ⟨14, _⟩ => ⟨S256x64, .f32⟩
  | .hbm, ⟨15, _⟩ => ⟨S256x64x1, .f32⟩
  | .hbm, ⟨16, _⟩ => ⟨S256x64x1, .f32⟩
  | .hbm, ⟨17, _⟩ => ⟨S_, .f32⟩
  | .hbm, ⟨18, _⟩ => ⟨S256x64x1, .f32⟩
  | .hbm, ⟨19, _⟩ => ⟨S256x64x1, .f32⟩
  | .hbm, ⟨20, _⟩ => ⟨S256x64x128, .f32⟩
  | .hbm, ⟨21, _⟩ => ⟨S256x64x128, .f32⟩
  | .hbm, ⟨22, _⟩ => ⟨S256x64x64x64, .f32⟩
  | .hbm, ⟨23, _⟩ => ⟨S64x256x64x64, .f32⟩
  | .hbm, ⟨24, _⟩ => ⟨S_, .f32⟩
  | .hbm, ⟨25, _⟩ => ⟨S64x256x64, .f32⟩
  | .hbm, ⟨26, _⟩ => ⟨S_, .f32⟩
  | .hbm, ⟨27, _⟩ => ⟨S64x256, .f32⟩
  | _, _ => ⟨S256x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩

abbrev nD : Nat := 1
abbrev τ : Topo := Topo.v7x

variable {F : FTy → Type} [FloatOps F]

class Facts₀ : Prop where
  reducesTo_S64x64x128_S64x64_d2 : S64x64x128.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x128_0_1_2 : S64x64x1.BroadcastsInDim S64x64x128 (![0, 1, 2] : Fin 3 → Fin S64x64x128.rank)
  reducesTo_S256x64x128_S256x64_d2 : S256x64x128.ReducesTo [2] S256x64
  bcast_S256x64_S256x64x1_0_1 : S256x64.BroadcastsInDim S256x64x1 (![0, 1] : Fin 2 → Fin S256x64x1.rank)
  bcast_S_S256x64x1 : S_.BroadcastsInDim S256x64x1 (![] : Fin 0 → Fin S256x64x1.rank)
  bcast_S256x64x1_S256x64x128_0_1_2 : S256x64x1.BroadcastsInDim S256x64x128 (![0, 1, 2] : Fin 3 → Fin S256x64x128.rank)
  transposes_S256x64x64x64_S64x256x64x64_2_0_3_1 : S256x64x64x64.Transposes [2, 0, 3, 1] S64x256x64x64
  reducesTo_S64x256x64x64_S64x256x64_d3 : S64x256x64x64.ReducesTo [3] S64x256x64
  reducesTo_S64x256x64_S64x256_d2 : S64x256x64.ReducesTo [2] S64x256
  dot_S256x64x128_S64x64x128_S256x64x64x64_2_2_01_01_n_n_wf : DotDims.WF S256x64x128 S64x64x128 S256x64x64x64 [2] [2] [0, 1] [0, 1] [] []

variable [Facts₀]

def dot_S256x64x128_S64x64x128_S256x64x64x64_2_2_01_01_n_n : DotDims S256x64x128 S64x64x128 S256x64x64x64 where
  lhsContracting := [2]
  rhsContracting := [2]
  lhsNonContracting := [0, 1]
  rhsNonContracting := [0, 1]
  lhsBatch := []
  rhsBatch := []
  wf := dot_S256x64x128_S64x64x128_S256x64x64x64_2_2_01_01_n_n_wf

class Facts : Prop extends Facts₀ where

variable [Facts]
-- ==== Proof.MaxSim.lean ====
/-
  The late-interaction ("maximum similarity") score, as one function of two stacks of row matrices.

  An item is a 64 × 128 matrix: 64 rows, each a vector of 128 coordinates. For an item `a` of a stack `P` and an
  item `b` of a stack `S`, every row `i` of `P a` looks for its best match among the rows `j` of `S b`, measured by
  the inner product `∑ d, P a i d · S b j d`; the score is the sum over `i` of those maxima:

      maxsim P S a b = ∑ i, max_j ∑ d, P (a, i, d) · S (b, j, d).

  The maximum is written as the fold of `max` starting from the value of the 32-bit word `0xFF800000` — the word
  both programs start their maximum from — so that nothing here depends on what that word denotes. The arithmetic is on
  the extended reals; only the shape of the expression matters below: `maxsim_congr` says the score of `(a, b)` reads
  `P` only on item `a` and `S` only on item `b`.
-/
import Idealize.ShloMosaic.PureOps.Ideal
import Idealize.ShloMosaic.Lib.ValueIdx

noncomputable section

namespace Cert.MaxSim

open Idealize.ShloMosaic Idealize.ShloMosaic.ValueIdx

/-- The late-interaction score of item `a` of `P` against item `b` of `S`: each of the 64 rows of `P`'s item takes its
    largest inner product (over 128 coordinates) with a row of `S`'s item, the maximum folded from the word
    `0xFF800000`'s value, and the 64 maxima are added. -/
def maxsim {A B : Nat} (P : (⟨3, ![A, 64, 128]⟩ : Shape).Idx → EReal) (S : (⟨3, ![B, 64, 128]⟩ : Shape).Idx → EReal)
    (a : Fin A) (b : Fin B) : EReal :=
  ∑ i : Fin 64, (Finset.univ : Finset (Fin 64)).fold max (Ideal.ofBits .f32 0xFF800000#32)
    (fun j : Fin 64 => ∑ d : Fin 128, P (ix3 a i d) * S (ix3 b j d))

/-- The score depends on its operands only through the two items' entries. -/
theorem maxsim_congr {A A' B B' : Nat} (P : (⟨3, ![A, 64, 128]⟩ : Shape).Idx → EReal) (P' : (⟨3, ![A', 64, 128]⟩ : Shape).Idx → EReal)
    (S : (⟨3, ![B, 64, 128]⟩ : Shape).Idx → EReal) (S' : (⟨3, ![B', 64, 128]⟩ : Shape).Idx → EReal)
    (a : Fin A) (a' : Fin A') (b : Fin B) (b' : Fin B')
    (hP : ∀ (i : Fin 64) (d : Fin 128), P (ix3 a i d) = P' (ix3 a' i d))
    (hS : ∀ (j : Fin 64) (d : Fin 128), S (ix3 b j d) = S' (ix3 b' j d)) :
    maxsim P S a b = maxsim P' S' a' b' := by
  unfold maxsim
  refine Finset.sum_congr rfl fun i _ => ?_
  refine congrArg (fun f => Finset.fold max (Ideal.ofBits .f32 0xFF800000#32) f (Finset.univ : Finset (Fin 64))) (funext fun j => ?_)
  refine Finset.sum_congr rfl fun d _ => ?_
  rw [hP i d, hS j d]

end Cert.MaxSim

end
-- ==== Proof.RowScore.lean ====
/-
  One stored row of the kernel's output block, read entry by entry.

  For each of the eight items of its block of `pano` the kernel body takes that item as a [1, 64, 128] block `p`,
  copies it 256 times along a new leading axis, multiplies it — batched over that axis, contracting the 128
  coordinates — with the whole [256, 64, 128] block `sat` into a zero accumulator, takes the maximum over the last axis
  (the rows of `sat`'s item), sums over the remaining axis (the rows of `p`), and stores the 256 numbers as one row.
  Entry `b` of that row is therefore the score of `p`'s one item against item `b` of `sat` (`pay_apply`).

  The steps: a sum and a maximum over one axis are a `Fin`-indexed sum and fold over the coordinate that axis
  inserts (`rowsum_apply`, `rowmax_apply`); the batched product at `(b, i, j)` is `∑ d, l (b, i, d) · r (b, j, d)`
  (`sim_apply`: batch axis 0, free axis 1, contracted axis 2 on both sides); the broadcast reads its one leading copy
  (`bcast_apply`); the changes of layout are the identity on the values.
-/
import proofs.«112448_j17660905521623_1_alg».proof.Proof.Gen.KernelIdeal.Skeleton
import proofs.«112448_j17660905521623_1_alg».proof.Proof.MaxSim
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Score

open Cert.KernelIdeal Cert.KernelIdeal.Gen Idealize.ShloMosaic Idealize.ShloMosaic.ValueIdx Cert.MaxSim

/-- The coordinate a sum over axis 1 of a [256, 64] array inserts: at column `b`, term `i` reads `(b, i)`. -/
theorem lift_row (h : S256x64.Reduces [1] S256) (b : Fin 256) (k : Fin (S256x64.size 1)) :
    h.lift (ix1 b) k = ix2 b (⟨k.val, k.isLt⟩ : Fin 64) := by
  funext c; apply Fin.ext; fin_cases c <;> rfl

/-- The coordinate a maximum over axis 2 of a [256, 64, 64] array inserts: at `(b, i)`, term `j` reads `(b, i, j)`. -/
theorem lift_cell (h : S256x64x64.Reduces [2] S256x64) (b : Fin 256) (i : Fin 64) (k : Fin (S256x64x64.size 2)) :
    h.lift (ix2 b i) k = ix3 b i (⟨k.val, k.isLt⟩ : Fin 64) := by
  funext c; apply Fin.ext; fin_cases c <;> rfl

/-- A sum over axis 1 of a [256, 64] array, read at column `b`: the sum over `i` of the entries `(b, i)`. -/
theorem rowsum_apply (x : FVec Ideal S256x64 .f32) (acc : BitVec 32) (h : S256x64.Reduces [1] S256) (hφ : FKind.Formats .f32)
    (hacc : acc = FKind.add.neutral .f32 hφ) (b : Fin 256) :
    multiReduction .add [1] S256 x acc h hφ hacc (ix1 b) = ∑ i : Fin 64, x (ix2 b i) :=
  (Ideal.multiReduction_add_single x acc h hφ hacc (ix1 b)).trans
    (Finset.sum_congr rfl fun k _ => congrArg x (lift_row h b k))

/-- A maximum over axis 2 of a [256, 64, 64] array, read at `(b, i)`: the fold of `max`, from the accumulator's
    value, over `j` of the entries `(b, i, j)`. -/
theorem rowmax_apply (x : FVec Ideal S256x64x64 .f32) (acc : BitVec 32) (h : S256x64x64.Reduces [2] S256x64) (hφ : FKind.Formats .f32)
    (hacc : acc = FKind.maximumf.neutral .f32 hφ) (b : Fin 256) (i : Fin 64) :
    multiReduction .maximumf [2] S256x64 x acc h hφ hacc (ix2 b i)
      = (Finset.univ : Finset (Fin 64)).fold max (Ideal.ofBits .f32 acc) (fun j : Fin 64 => x (ix3 b i j)) :=
  (Ideal.multiReduction_maximumf_single x acc h hφ hacc (ix2 b i)).trans
    (congrArg (fun f => Finset.fold max (Ideal.ofBits .f32 acc) f (Finset.univ : Finset (Fin 64)))
      (funext fun k => congrArg x (lift_cell h b i k)))

/-- One [1, 64, 128] block broadcast over 256 leading copies, read at `(b, i, d)`: the block at `(0, i, d)`. -/
theorem bcast_apply {α : Type} (x : S1x64x128.Idx → α) (h : S1x64x128.Broadcasts S256x64x128) (b : Fin 256) (i : Fin 64) (d : Fin 128) :
    broadcastTo S256x64x128 x h (ix3 b i d) = x (ix3 (0 : Fin 1) i d) :=
  broadcastTo_apply x h _ _ (fun a => match a with
    | ⟨0, _⟩ => by show 0 = if (1 : Nat) = 1 then 0 else b.val; rw [if_pos rfl]
    | ⟨1, _⟩ => by show i.val = if (64 : Nat) = 1 then 0 else i.val; rw [if_neg (by decide)]
    | ⟨2, _⟩ => by show d.val = if (128 : Nat) = 1 then 0 else d.val; rw [if_neg (by decide)])

/-! The batched product's operand indices: at output `(b, i, j)` and contraction position `k` the left operand is read
    at `(b, i, k)` and the right at `(b, j, k)`. -/

theorem lhs_batch (y : S256x64x64.Idx) (q : dot_S256x64x128_S256x64x128_S256x64x64_2_2_1_1_0_0.contr.Idx) :
    (dot_S256x64x128_S256x64x128_S256x64x64_2_2_1_1_0_0.lhsIdx y q 0).val = (y 0).val := by
  unfold DotDims.lhsIdx
  rw [dif_pos (show (0 : Fin S256x64x128.rank) ∈ dot_S256x64x128_S256x64x128_S256x64x64_2_2_1_1_0_0.lhsBatch by decide)]
  rfl

theorem lhs_free (y : S256x64x64.Idx) (q : dot_S256x64x128_S256x64x128_S256x64x64_2_2_1_1_0_0.contr.Idx) :
    (dot_S256x64x128_S256x64x128_S256x64x64_2_2_1_1_0_0.lhsIdx y q 1).val = (y 1).val := by
  unfold DotDims.lhsIdx
  rw [dif_neg (show ¬(1 : Fin S256x64x128.rank) ∈ dot_S256x64x128_S256x64x128_S256x64x64_2_2_1_1_0_0.lhsBatch by decide),
    dif_pos (show (1 : Fin S256x64x128.rank) ∈ dot_S256x64x128_S256x64x128_S256x64x64_2_2_1_1_0_0.lhsNonContracting by decide)]
  rfl

theorem lhs_contr (y : S256x64x64.Idx) (q : dot_S256x64x128_S256x64x128_S256x64x64_2_2_1_1_0_0.contr.Idx) :
    (dot_S256x64x128_S256x64x128_S256x64x64_2_2_1_1_0_0.lhsIdx y q 2).val = (q ⟨0, by decide⟩).val :=
  dot_S256x64x128_S256x64x128_S256x64x64_2_2_1_1_0_0.lhsIdx_val_of_single rfl y q

theorem rhs_batch (y : S256x64x64.Idx) (q : dot_S256x64x128_S256x64x128_S256x64x64_2_2_1_1_0_0.contr.Idx) :
    (dot_S256x64x128_S256x64x128_S256x64x64_2_2_1_1_0_0.rhsIdx y q 0).val = (y 0).val := by
  unfold DotDims.rhsIdx
  rw [dif_pos (show (0 : Fin S256x64x128.rank) ∈ dot_S256x64x128_S256x64x128_S256x64x64_2_2_1_1_0_0.rhsBatch by decide)]
  rfl

theorem rhs_free (y : S256x64x64.Idx) (q : dot_S256x64x128_S256x64x128_S256x64x64_2_2_1_1_0_0.contr.Idx) :
    (dot_S256x64x128_S256x64x128_S256x64x64_2_2_1_1_0_0.rhsIdx y q 1).val = (y 2).val := by
  unfold DotDims.rhsIdx
  rw [dif_neg (show ¬(1 : Fin S256x64x128.rank) ∈ dot_S256x64x128_S256x64x128_S256x64x64_2_2_1_1_0_0.rhsBatch by decide),
    dif_pos (show (1 : Fin S256x64x128.rank) ∈ dot_S256x64x128_S256x64x128_S256x64x64_2_2_1_1_0_0.rhsNonContracting by decide)]
  rfl

theorem rhs_contr (y : S256x64x64.Idx) (q : dot_S256x64x128_S256x64x128_S256x64x64_2_2_1_1_0_0.contr.Idx) :
    (dot_S256x64x128_S256x64x128_S256x64x64_2_2_1_1_0_0.rhsIdx y q 2).val = (q ⟨0, by decide⟩).val :=
  dot_S256x64x128_S256x64x128_S256x64x64_2_2_1_1_0_0.rhsIdx_val_of_single rfl y q

/-- The batched product into a zero accumulator, read at `(b, i, j)`: the sum over the 128 contraction positions
    of the left operand at `(b, i, d)` times the right at `(b, j, d)`. -/
theorem sim_apply (l r : FVec Ideal S256x64x128 .bf16) (b : Fin 256) (i j : Fin 64) :
    matmul dot_S256x64x128_S256x64x128_S256x64x64_2_2_1_1_0_0 none l r (constant (F := Ideal) S256x64x64 .f32 0x00000000#32) (ix3 b i j)
      = ∑ d : Fin 128, l (ix3 b i d) * r (ix3 b j d) := by
  refine (Ideal.matmul_constant_zero_apply dot_S256x64x128_S256x64x128_S256x64x64_2_2_1_1_0_0 none l r (ix3 b i j)).trans ?_
  rw [← Equiv.sum_comp (contrEquiv1 dot_S256x64x128_S256x64x128_S256x64x64_2_2_1_1_0_0 128 rfl rfl).symm]
  refine Finset.sum_congr rfl fun k _ => ?_
  have hk := contrEquiv1_symm_val dot_S256x64x128_S256x64x128_S256x64x64_2_2_1_1_0_0 128 rfl rfl k
  have el : dot_S256x64x128_S256x64x128_S256x64x64_2_2_1_1_0_0.lhsIdx (ix3 b i j)
      ((contrEquiv1 dot_S256x64x128_S256x64x128_S256x64x64_2_2_1_1_0_0 128 rfl rfl).symm k) = ix3 b i k :=
    funext fun a => Fin.ext (by
      match a with
      | ⟨0, _⟩ => exact lhs_batch _ _
      | ⟨1, _⟩ => exact lhs_free _ _
      | ⟨2, _⟩ => exact (lhs_contr _ _).trans hk)
  have er : dot_S256x64x128_S256x64x128_S256x64x64_2_2_1_1_0_0.rhsIdx (ix3 b i j)
      ((contrEquiv1 dot_S256x64x128_S256x64x128_S256x64x64_2_2_1_1_0_0 128 rfl rfl).symm k) = ix3 b j k :=
    funext fun a => Fin.ext (by
      match a with
      | ⟨0, _⟩ => exact rhs_batch _ _
      | ⟨1, _⟩ => exact rhs_free _ _
      | ⟨2, _⟩ => exact (rhs_contr _ _).trans hk)
  rw [el, er]

/-- One store's payload: the row block `p` (one item of 64 rows) scored against each of the 256 items of `sat`. -/
theorem pay_apply (sat : Vec Ideal S256x64x128 .bf16) (p : Vec Ideal S1x64x128 .bf16) (u : Fin 1) (b : Fin 256) :
    k0_pay4 (F := Ideal) sat p (ix2 u b) = maxsim p sat (0 : Fin 1) b := by
  unfold k0_pay4 k0_pay3 maxsim
  dsimp only
  refine (shapeCast_a_1a_apply _ _ u b).trans ?_
  refine (rowsum_apply _ _ _ _ _ b).trans ?_
  refine Finset.sum_congr rfl fun i _ => ?_
  refine (rowmax_apply _ _ _ _ _ b i).trans ?_
  refine congrArg (fun f => Finset.fold max (Ideal.ofBits .f32 0xFF800000#32) f (Finset.univ : Finset (Fin 64))) (funext fun (j : Fin 64) => ?_)
  refine (sim_apply _ _ b i j).trans ?_
  refine Finset.sum_congr rfl fun d _ => ?_
  rw [bcast_apply, shapeCast_shapeCast, shapeCast_self]

end Cert.KernelIdeal.Score

end
-- ==== Proof.BlockScore.lean ====
/-
  The kernel's output block as one function of its two input blocks.

  The body stores eight rows, row `k` computed from item `k` of the [8, 64, 128] block of `pano` and from the whole
  [256, 64, 128] block of `sat`. The eight rows tile the [8, 256] output block, and on each row the stored value is
  the score of that item against each item of `sat` (`row_piece`, from the one-row reading `pay_apply`: the load of
  item `k` reads the block at `(k, i, d)`, and the store places entry `b` at `(k, b)`). So the block the body leaves is

      blockScore x0 x1 (r, b) = maxsim x0 x1 r b        (`out_apply`).

  The body's text is cut into parts, so the eight payloads are spelt in three ways (directly; through the re-laid
  `sat` block; sum and final re-lay apart); all are one expression, which `exact` checks by unfolding.
-/
import proofs.«112448_j17660905521623_1_alg».proof.Proof.Gen.KernelIdeal.Frame
import proofs.«112448_j17660905521623_1_alg».proof.Proof.RowScore

noncomputable section

namespace Cert.KernelIdeal.Score

open Cert.KernelIdeal Cert.KernelIdeal.Gen Idealize.ShloMosaic Idealize.ShloMosaic.ValueIdx Cert.MaxSim

/-- The output block as one function of the two input blocks: entry `(r, b)` is the score of item `r` of the first
    block against item `b` of the second. -/
def blockScore (x0 : Vec Ideal S8x64x128 .bf16) (x1 : Vec Ideal S256x64x128 .bf16) : S8x256.Idx → EReal :=
  fun y => maxsim x0 x1 (⟨(y 0).val, (y 0).isLt⟩ : Fin 8) (⟨(y 1).val, (y 1).isLt⟩ : Fin 256)

/-- The piece stored at row `k` of the output block: its payload at `x` is `blockScore` at the piece's place in the block. -/
theorem row_piece (k : Nat)
    (inbL : ∀ a, (![k, 0, 0] : Fin 3 → Nat) a + S1x64x128.size a ≤ S8x64x128.size a)
    (inbS : ∀ a, (![k, 0] : Fin 2 → Nat) a + S1x256.size a ≤ S8x256.size a)
    (x0 : Vec Ideal S8x64x128 .bf16) (x1 : Vec Ideal S256x64x128 .bf16) (x : S1x256.Idx) :
    k0_pay4 (F := Ideal) (View.ld x1 r0_0) (View.ld x0 (Rect.unit (s := S8x64x128) ![k, 0, 0] S1x64x128.size inbL)) x
      = blockScore x0 x1 ((Rect.unit (s := S8x256) ![k, 0] S1x256.size inbS).emb x) := by
  obtain ⟨u, b, rfl⟩ : ∃ (u : Fin 1) (b : Fin 256), x = ix2 u b := ⟨x 0, x 1, eq_ix2 x⟩
  have hu : u.val = 0 := by omega
  refine (pay_apply _ _ u b).trans ?_
  unfold blockScore
  refine maxsim_congr _ _ _ _ _ _ _ _ (fun i d => ?_) (fun j d => ?_)
  · exact congrArg x0 (funext fun a => Fin.ext (by
      match a with
      | ⟨0, _⟩ => show k + 1 * 0 = k + 1 * u.val; omega
      | ⟨1, _⟩ => show 0 + 1 * i.val = i.val; omega
      | ⟨2, _⟩ => show 0 + 1 * d.val = d.val; omega))
  · exact congrArg x1 (funext fun a => Fin.ext (by
      match a with
      | ⟨0, _⟩ => show 0 + 1 * b.val = 0 + 1 * b.val; rfl
      | ⟨1, _⟩ => show 0 + 1 * j.val = j.val; omega
      | ⟨2, _⟩ => show 0 + 1 * d.val = d.val; omega))

/-- What the body leaves in the output block, entry by entry: the eight stored rows tile the block, and each is
    `blockScore` on its row. -/
theorem out_apply (x0 : Vec Ideal S8x64x128 .bf16) (x1 : Vec Ideal S256x64x128 .bf16) :
    out0_2 (F := Ideal) x0 x1 = blockScore x0 x1 := by
  funext y
  unfold out0_2
  refine View.canon_apply_of_pieces (Val := Elt Ideal) (e := .f32) (blockScore x0 x1) _ ?_ y (cover0_2 _ _ _ _ _ _ _ _ y)
  intro p hp x
  simp only [List.mem_cons, List.mem_nil_iff, or_false] at hp
  rcases hp with rfl | rfl | rfl | rfl | rfl | rfl | rfl | rfl
  · exact row_piece 7 inb_S8x64x128_S1x64x128_7_0_0 inb_S8x256_S1x256_7_0 x0 x1 x
  · exact row_piece 6 inb_S8x64x128_S1x64x128_6_0_0 inb_S8x256_S1x256_6_0 x0 x1 x
  · exact row_piece 5 inb_S8x64x128_S1x64x128_5_0_0 inb_S8x256_S1x256_5_0 x0 x1 x
  · exact row_piece 4 inb_S8x64x128_S1x64x128_4_0_0 inb_S8x256_S1x256_4_0 x0 x1 x
  · exact row_piece 3 inb_S8x64x128_S1x64x128_3_0_0 inb_S8x256_S1x256_3_0 x0 x1 x
  · exact row_piece 2 inb_S8x64x128_S1x64x128_2_0_0 inb_S8x256_S1x256_2_0 x0 x1 x
  · exact row_piece 1 inb_S8x64x128_S1x64x128_1_0_0 inb_S8x256_S1x256_1_0 x0 x1 x
  · exact row_piece 0 inb_S8x64x128_S1x64x128_0_0_0 inb_S8x256_S1x256_0_0 x0 x1 x

end Cert.KernelIdeal.Score

end
-- ==== Proof.ResultArray.lean ====
/-
  From blocks to the whole result array.

  The grid has eight points. Point `t` is given rows `8t … 8t+7` of the (normalized) `pano` stack, the whole
  (normalized) `sat` stack, and writes back rows `8t … 8t+7` of the [64, 256] result. What it writes is the block
  score of its two input blocks (`out_apply`), and a score reads its operands on one item each, so the block point
  `t` writes is the restriction to its rows of ONE function of the two whole arrays,

      scores (a, b) = maxsim pano sat a b        (`flushed_eq`);

  the index bookkeeping is that row `r` of a block at block index `q` is row `8q + r` of the array, with the block
  indices of the three windows related as `index_maps` says. The eight blocks cover the 64 rows (`cover`: row `r`
  belongs to point `r / 8`), so the array ends at `scores` (`final`), and the kernel's run is restated with that
  value (`run`).
-/
import proofs.«112448_j17660905521623_1_alg».proof.Proof.Gen.KernelIdeal.Value
import proofs.«112448_j17660905521623_1_alg».proof.Proof.BlockScore

noncomputable section

namespace Cert.KernelIdeal.Score

open Cert.KernelIdeal Cert.KernelIdeal.Gen Idealize.ShloMosaic Idealize.ShloMosaic.TcCoe Idealize.SL.Sem
open Idealize.ShloMosaic.ValueIdx Cert.MaxSim
open Idealize.ShloMosaic.Pipeline (Dat)

variable (m : (ℓ : Loc nD τ sig) → Buf (Elt Ideal) ℓ) (ρ : Dev nD → PrngReg)

/-- The whole [64, 256] result as one function of the two arrays the region is entered with (the normalized `pano`, 64
    items, and the normalized `sat`, 256 items): entry `(a, b)` is the score of item `a` against item `b`. -/
def scores (c : Dev nD) : S64x256.Idx → EReal :=
  fun y => maxsim (V m c main_v10) (V m c main_v11) (⟨(y 0).val, (y 0).isLt⟩ : Fin 64) (⟨(y 1).val, (y 1).isLt⟩ : Fin 256)

/-- The printed index maps over the eight grid points: the block of `pano` moves with the output's block along the
    leading axis and sits at zero on the others; `sat`'s one block never moves; the output's block index on its second
    axis is zero. -/
theorem index_maps : ∀ t : Fin cfg0.N, win0_0.index t (0 : Fin 3) = win0_2.index t (0 : Fin 2)
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (1 : Fin 2) = 0 :=
  (by decide +kernel : ∀ t : Fin grid0.N, _)

/-- What grid point `t` writes back is block `t` — eight rows — of `scores`. -/
theorem flushed_eq (c : Dev nD) (t : Fin cfg0.N) :
    (dats m 0 c).flushed 2 t = ((cfg0.win 2).blk t).view.read (Elt Ideal) (scores m c) := by
  rw [Value.flushed2, out_apply]
  obtain ⟨e0, e1, e2, e3, e4, e5, e6⟩ := index_maps t
  funext j
  show blockScore (iblk m c 0 t) (iblk m c 1 t) j = scores m c (((cfg0.win 2).blk t).view.emb j)
  unfold blockScore scores
  refine maxsim_congr _ _ _ _ _ _ _ _ (fun i d => ?_) (fun k d => ?_)
  · show V m c main_v10 (((cfg0.win 0).blk t).view.emb (ix3 (⟨(j 0).val, (j 0).isLt⟩ : Fin 8) i d)) = _
    refine congrArg (V m c main_v10) (funext fun a => Fin.ext ?_)
    match a with
    | ⟨0, _⟩ =>
      show win0_0.index t (0 : Fin 3) * 8 + 1 * (j 0).val = win0_2.index t (0 : Fin 2) * 8 + 1 * (j 0).val
      omega
    | ⟨1, _⟩ => show win0_0.index t (1 : Fin 3) * 64 + 1 * i.val = i.val; omega
    | ⟨2, _⟩ => show win0_0.index t (2 : Fin 3) * 128 + 1 * d.val = d.val; omega
  · show V m c main_v11 (((cfg0.win 1).blk t).view.emb (ix3 (⟨(j 1).val, (j 1).isLt⟩ : Fin 256) k d)) = _
    refine congrArg (V m c main_v11) (funext fun a => Fin.ext ?_)
    match a with
    | ⟨0, _⟩ =>
      show win0_1.index t (0 : Fin 3) * 256 + 1 * (j 1).val = win0_2.index t (1 : Fin 2) * 256 + 1 * (j 1).val
      omega
    | ⟨1, _⟩ => show win0_1.index t (1 : Fin 3) * 64 + 1 * k.val = k.val; omega
    | ⟨2, _⟩ => show win0_1.index t (2 : Fin 3) * 128 + 1 * d.val = d.val; omega

/-- An index of the result array lies in point `t`'s block iff each coordinate lies in the block's range on its axis. -/
theorem mem_block (t : Fin cfg0.N) (i : S64x256.Idx) :
    i ∈ ((cfg0.win 2).blk t).view.set ↔ ∀ a : Fin 2, win0_2.index t a * S8x256.size a ≤ (i a).val
      ∧ (i a).val < win0_2.index t a * S8x256.size a + S8x256.size a := by
  show i ∈ ((View.whole main_v12).slice (win0_2.rect t)).set ↔ _
  rw [View.set_slice_whole, Rect.mem_set_unit]
  exact Iff.rfl

/-- Each of the eight row blocks is some grid point's. -/
theorem block_onto : ∀ q : Fin 8, ∃ t : Fin cfg0.N, win0_2.index t = ![q.val, 0] :=
  (by decide +kernel : ∀ q : Fin 8, ∃ t : Fin grid0.N, win0_2.index t = ![q.val, 0])

/-- The eight blocks of eight rows cover the 64 rows: row `r` is in the block of the point with index `r / 8`. -/
theorem cover (i : S64x256.Idx) : ∃ t : Fin cfg0.N, (cfg0.win 2).flush t = true ∧ i ∈ ((cfg0.win 2).blk t).view.set := by
  have hi0 : (i 0).val < 64 := (i 0).isLt
  have hi1 : (i 1).val < 256 := (i 1).isLt
  obtain ⟨t, ht⟩ := block_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 256 ≤ (i 1).val ∧ (i 1).val < win0_2.index t (1 : Fin 2) * 256 + 256
    omega

/-- After the run the result array is `scores`. -/
theorem final (c : Dev nD) : (dats m 0 c).arrAt 2 cfg0.N = scores m c :=
  (dats m 0 c).arrAt_eq_of_cover 2 (scores m c) (fun t _ => flushed_eq m c t) cover

/-- The kernel's run: it ends with the result array at `scores` and the two arguments unchanged. -/
theorem run : θ_run defs (onTc (τ := τ) (main (F := Ideal))) ⟨m, fun _ => 0, ρ⟩ fun r => ∀ c : Dev nD,
      r.2.mem ((c : Thread nD τ).loc main_v12) = scores m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Score

end
-- ==== Proof.RefScore.lean ====
/-
  The reference's result is the score of its two normalized operands.

  After normalizing both inputs (stages `val_main_v4` for `pano`, `val_main_v9` for `sat`) the reference forms every
  inner product at once — `dot_general` of `sat` with `pano` over the 128 coordinates, indexed `(b, j, a, i)` —,
  transposes to `(a, b, i, j)`, takes the maximum over `j` from the value of the word `0xFF800000`, and adds over `i`
  from zero. Read at `(a, b)`:

      0 + ∑ i, max_j ∑ d, sat (b, j, d) · pano (a, i, d)   =   maxsim pano sat a b,

  by `0 + x = x` and the commutativity of the product; the sums and the maximum are in the same order on both sides.
  The sum and the dot are read by the generated stage lemmas; the maximum over the last axis is read here
  (`pairmax_apply`), as a fold over the coordinate that axis inserts.
-/
import proofs.«112448_j17660905521623_1_alg».proof.Proof.Gen.ReferenceIdeal.Read
import proofs.«112448_j17660905521623_1_alg».proof.Proof.MaxSim
import Idealize.ShloMosaic.PureOps.Reduce

noncomputable section

namespace Cert.ReferenceIdeal.Score

open Cert.ReferenceIdeal Cert.ReferenceIdeal.Gen Cert.ReferenceIdeal.Read Idealize.ShloMosaic Idealize.ShloMosaic.ValueIdx Cert.MaxSim

/-- The coordinate a maximum over the last axis of the [64, 256, 64, 64] array inserts: at `(a, b, i)`, term `j` reads
    `(a, b, i, j)`. -/
theorem lift_pair (h : S64x256x64x64.Reduces [3] S64x256x64) (a : Fin 64) (b : Fin 256) (i : Fin 64)
    (k : Fin (S64x256x64x64.size 3)) :
    h.lift (idx_main_v13 (ix2 a b) i) k = ix4 a b i (⟨k.val, k.isLt⟩ : Fin 64) := by
  funext c; apply Fin.ext; fin_cases c <;> rfl

/-- The maximum over the last axis, read at `(a, b, i)`: the fold of `max`, from the initial value, over `j` of the
    entries `(a, b, i, j)`. -/
theorem pairmax_apply (x : FVec Ideal S64x256x64x64 .f32) (init : FVec Ideal S_ .f32) (a : Fin 64) (b : Fin 256) (i : Fin 64) :
    Host.reduce FloatOps.maximumf x init reducesTo_S64x256x64x64_S64x256x64_d3 h_S_ (idx_main_v13 (ix2 a b) i)
      = (Finset.univ : Finset (Fin 64)).fold max (init (Shape.Idx.first h_S_)) (fun j : Fin 64 => x (ix4 a b i j)) :=
  (Host.reduce_eq_fold_single FloatOps.maximumf x init reducesTo_S64x256x64x64_S64x256x64_d3 (by decide) h_S_ _).trans
    (congrArg (fun f => Finset.fold max (init (Shape.Idx.first h_S_)) f (Finset.univ : Finset (Fin 64)))
      (funext fun k => congrArg x (lift_pair _ a b i k)))

/-- The reference's result at `(a, b)`: the score of item `a` of the normalized `pano` against item `b` of the
    normalized `sat`. -/
theorem ref_entry (x0 : (⟨S256x64x128, .f32⟩ : BufTy).Contents (Elt Ideal)) (x1 : (⟨S64x64x128, .f32⟩ : BufTy).Contents (Elt Ideal)) (a : Fin 64) (b : Fin 256) :
    val_main_v13 (F := Ideal) x0 x1 (ix2 a b) = maxsim (val_main_v4 (F := Ideal) x1) (val_main_v9 (F := Ideal) x0) a b := by
  refine (val_main_v13_apply x0 x1 (ix2 a b)).trans ?_
  rw [val_main_cst_2_apply]
  show Ideal.ofBits .f32 0x00000000#32 + _ = _
  rw [Ideal.ofBits_zero_f32, zero_add]
  unfold maxsim
  refine Finset.sum_congr rfl fun i _ => ?_
  unfold val_main_v12
  refine (pairmax_apply _ _ a b i).trans ?_
  rw [val_main_cst_1_apply]
  refine congrArg (fun f => Finset.fold max (Ideal.ofBits .f32 0xFF800000#32) f (Finset.univ : Finset (Fin 64))) (funext fun j => ?_)
  rw [val_main_v11_apply, val_main_v10_apply]
  refine Finset.sum_congr rfl fun d _ => ?_
  have el : lidx_main_v10 (idx_main_v11 (ix4 a b i j)) d = ix3 b j d :=
    funext fun c => Fin.ext (by match c with | ⟨0, _⟩ => rfl | ⟨1, _⟩ => rfl | ⟨2, _⟩ => rfl)
  have er : ridx_main_v10 (idx_main_v11 (ix4 a b i j)) d = ix3 a i d :=
    funext fun c => Fin.ext (by match c with | ⟨0, _⟩ => rfl | ⟨1, _⟩ => rfl | ⟨2, _⟩ => rfl)
  rw [el, er]
  exact mul_comm (G := EReal) _ _

/-- The reference's result, as a whole array. -/
theorem ref_scores (x0 : (⟨S256x64x128, .f32⟩ : BufTy).Contents (Elt Ideal)) (x1 : (⟨S64x64x128, .f32⟩ : BufTy).Contents (Elt Ideal)) :
    val_main_v13 (F := Ideal) x0 x1
      = fun y : S64x256.Idx => maxsim (val_main_v4 (F := Ideal) x1) (val_main_v9 (F := Ideal) x0)
          (⟨(y 0).val, (y 0).isLt⟩ : Fin 64) (⟨(y 1).val, (y 1).isLt⟩ : Fin 256) := by
  funext y
  obtain ⟨a, b, rfl⟩ : ∃ (a : Fin 64) (b : Fin 256), y = ix2 a b := ⟨y 0, y 1, eq_ix2 y⟩
  exact ref_entry x0 x1 a b

end Cert.ReferenceIdeal.Score

end
-- ==== Proof.Normalized.lean ====
/-
  The two programs normalize their inputs in the same way.

  Before anything else both programs replace each 128-vector `x` of `pano` and of `sat` by `x / max(‖x‖, ε)`, with
  `‖x‖ = sqrt(∑ d, x d · x d)` and `ε` the value of the word `0x2B8CBCCC`: the same operations, in the same order, with
  the same constants. The kernel's program then changes the format of both arrays, which on the extended reals is the
  identity, and launches its region on them. So the arrays its region is entered with are the reference's normalized
  operands of the same arguments — both sides unfold to one expression.
-/
import proofs.«112448_j17660905521623_1_alg».proof.Proof.Gen.KernelIdeal.Frame
import proofs.«112448_j17660905521623_1_alg».proof.Proof.Gen.ReferenceIdeal.Read

noncomputable section

namespace Cert.KernelIdeal.Score

open Cert.KernelIdeal Cert.KernelIdeal.Gen Idealize.ShloMosaic Idealize.ShloMosaic.TcCoe Idealize.SL.Sem

variable (m : (ℓ : Loc nD τ sig) → Buf (Elt Ideal) ℓ)

/-- The first array the region is entered with: the host has divided `pano` by the larger of its rows' norms and the
    small constant, then changed the format, which is the identity on the values. It is the reference's normalized
    `pano` of the same argument. -/
theorem pano_entry (c : Dev nD) :
    (V m c main_v10 : S64x64x128.Idx → EReal)
      = Cert.ReferenceIdeal.Read.val_main_v4 (F := Ideal) (m ((c.tc : Thread nD τ).loc main_arg1)) := by
  dsimp only [Gen.V]
  simp only [Gen.hostOps0, Gen.hostOps0_1, Gen.hostOps0_2, Gen.hostOps0_3, List.flatten_cons, List.flatten_nil, List.append_nil,
    List.cons_append, List.nil_append]
  after_results
  rfl

/-- The second array likewise: the reference's normalized `sat` of the same argument. -/
theorem sat_entry (c : Dev nD) :
    (V m c main_v11 : S256x64x128.Idx → EReal)
      = Cert.ReferenceIdeal.Read.val_main_v9 (F := Ideal) (m ((c.tc : Thread nD τ).loc main_arg0)) := by
  dsimp only [Gen.V]
  simp only [Gen.hostOps0, Gen.hostOps0_1, Gen.hostOps0_2, Gen.hostOps0_3, List.flatten_cons, List.flatten_nil, List.append_nil,
    List.cons_append, List.nil_append]
  after_results
  rfl

end Cert.KernelIdeal.Score

end
-- ==== Proof.lean ====
/-
  The kernel and its reference compute the same [64, 256] array of late-interaction scores.

  Both programs first normalize the rows of `pano` (64 items of 64 rows of 128 coordinates) and of `sat` (256 such
  items) in the same way (Proof/Normalized.lean). The reference then forms all inner products at once, takes the
  maximum over the rows of `sat`'s item and adds over the rows of `pano`'s item; read at `(a, b)` this is
  `maxsim pano sat a b = ∑ i, max_j ∑ d, pano (a, i, d) · sat (b, j, d)` (Proof/RefScore.lean, Proof/MaxSim.lean). The
  kernel walks eight grid points; at each it scores eight items of `pano` against all of `sat`, one batched matrix
  product, one maximum and one sum per item, and writes eight rows of the result (Proof/RowScore.lean,
  Proof/BlockScore.lean); the rows it writes are the rows of the same function of the two whole arrays, and the
  eight blocks cover the result (Proof/ResultArray.lean). The two sides differ only in the order of the two factors of
  each product and in a zero the reference adds first; no law that needs finite values is used, so the precondition
  is never opened.

  The three frame claims are the generated frame runs (the reference's is its generated run with the result
  dropped); the idealized kernel is the kernel's own text read on the extended reals, so there is nothing to
  preserve.
-/
import proofs.«112448_j17660905521623_1_alg».proof.Defs
import proofs.«112448_j17660905521623_1_alg».proof.Proof.Gen.Kernel
import proofs.«112448_j17660905521623_1_alg».proof.Proof.Gen.Kernel.Frame
import proofs.«112448_j17660905521623_1_alg».proof.Proof.Gen.KernelIdeal
import proofs.«112448_j17660905521623_1_alg».proof.Proof.Gen.KernelIdeal.Frame
import proofs.«112448_j17660905521623_1_alg».proof.Proof.Gen.KernelIdeal.Value
import proofs.«112448_j17660905521623_1_alg».proof.Proof.Gen.ReferenceIdeal
import proofs.«112448_j17660905521623_1_alg».proof.Proof.Gen.ReferenceIdeal.Run
import proofs.«112448_j17660905521623_1_alg».proof.Proof.Gen.ReferenceIdeal.Read
import proofs.«112448_j17660905521623_1_alg».proof.Proof.Gen.Pre_finite_inputs
import proofs.«112448_j17660905521623_1_alg».proof.Proof.ResultArray
import proofs.«112448_j17660905521623_1_alg».proof.Proof.RefScore
import proofs.«112448_j17660905521623_1_alg».proof.Proof.Normalized

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments, both runs end with the result array at the scores of the normalized
    arguments: the kernel's by `Score.run`, whose two entry arrays are the reference's normalized operands
    (`pano_entry`, `sat_entry`); the reference's by its generated run, read as the score (`ref_scores`). -/
theorem algebraic : Cert.algebraic_KernelIdeal_ReferenceIdeal := by
  intro m ρ m' ρ' _ hagree
  refine ⟨fun c => Cert.KernelIdeal.Score.scores m c, Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Score.ref_scores, (hagree c).1, (hagree c).2]
  funext y
  exact Cert.MaxSim.maxsim_congr _ _ _ _ _ _ _ _
    (fun _ _ => (congrFun (Cert.KernelIdeal.Score.pano_entry m c) _).symm)
    (fun _ _ => (congrFun (Cert.KernelIdeal.Score.sat_entry m c) _).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
